-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel

variable [Facts]

def fn {F : FTy → Type} [FloatOps F] (main_arg0 : FVec F S16384x3 .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  main_v3
-- ==== Kernel.lean ====
abbrev S16384x3 : Shape := ⟨2, ![16384, 3]⟩
abbrev S1x4 : Shape := ⟨2, ![1, 4]⟩
abbrev S2048x3 : Shape := ⟨2, ![2048, 3]⟩
abbrev S3 : Shape := ⟨1, ![3]⟩
abbrev S1x3 : Shape := ⟨2, ![1, 3]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S_ : Shape := ⟨0, ![]⟩

abbrev nBuf : Space → Nat
  | .hbm => 14
  | .vmem => 3
  | .smem => 0
  | _ => 0

abbrev bufTy : (tb : Table) → Fin (tcTables nBuf tb) → BufTy
  | .hbm, ⟨0, _⟩ => ⟨S16384x3, .f32⟩
  | .hbm, ⟨1, _⟩ => ⟨S1x4, .f32⟩
  | .hbm, ⟨2, _⟩ => ⟨S1x3, .f32⟩
  | .hbm, ⟨3, _⟩ => ⟨S3, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S3, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S2048x3, .f32⟩
  | .local _ .vmem, ⟨1, _⟩ => ⟨S2048x3, .f32⟩
  | .local _ .vmem, ⟨2, _⟩ => ⟨S1x4, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S1x4_S1x4_0_0 : ∀ a, (![0, 0] : Fin 2 → Nat) a + S1x4.size a ≤ S1x4.size a
  h_S1x4 : 0 < S1x4.numel
  inb_S2048x3_S2048x3_0_0 : ∀ a, (![0, 0] : Fin 2 → Nat) a + S2048x3.size a ≤ S2048x3.size a
  h_S2048x3 : 0 < S2048x3.numel
  reduces_S2048x3_S3 : S2048x3.Reduces [0] S3
  shapeCasts_S3_S1x3 : S3.ShapeCasts S1x3
  reduces_S2048x3_S2048 : S2048x3.Reduces [1] S2048
  shapeCasts_S2048_S2048x1 : S2048.ShapeCasts S2048x1
  reduces_S2048x1_S1 : S2048x1.Reduces [0] S1
  shapeCasts_S1_S1x1 : S1.ShapeCasts S1x1
  concatenates_S1x3_S1x1_S1x4_d1 : Shape.Concatenates [S1x3, S1x1] S1x4 1
  shapeCasts_S1x4_S1x4 : S1x4.ShapeCasts S1x4
  slices_S1x4_S1x3_0_0 : S1x4.Slices ![0, 0] S1x3
  shapeCasts_S1x3_S3 : S1x3.ShapeCasts S3
  slices_S1x4_S1x1_0_3 : S1x4.Slices ![0, 3] S1x1
  shapeCasts_S1x1_S_ : S1x1.ShapeCasts S_
  reducesTo_S3_S_d0 : S3.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x3.size a ≤ S16384x3.size a
  hwx0_0 : ∀ i : grid0.Coords, EltTy.bits .f32 = 32 ∨ (Rect.block (s := S16384x3) S2048x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4.size a ≤ S1x4.size a
  hwx0_1 : ∀ i : grid0.Coords, EltTy.bits .f32 = 32 ∨ (Rect.block (s := S1x4) S1x4.size (cc0_transform_1 i) (hinb0_1 i)).WholeWords (EltTy.packing .f32)

variable [Facts₀]

abbrev win0_0 : Pipeline.Window sig grid0 :=
  Pipeline.Window.ofSpec (Memref.whole main_arg0) S2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x3 : Shape := ⟨2, ![16384, 3]⟩
abbrev S_ : Shape := ⟨0, ![]⟩
abbrev S16384 : Shape := ⟨1, ![16384]⟩
abbrev S3x16384 : Shape := ⟨2, ![3, 16384]⟩
abbrev S16384x16384 : Shape := ⟨2, ![16384, 16384]⟩
abbrev S16384x1 : Shape := ⟨2, ![16384, 1]⟩
abbrev S1x16384 : Shape := ⟨2, ![1, 16384]⟩

abbrev nBuf : Space → Nat
  | .hbm => 17
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S_, .f32⟩
  | .hbm, ⟨3, _⟩ => ⟨S16384, .f32⟩
  | .hbm, ⟨4, _⟩ => ⟨S3x16384, .f32⟩
  | .hbm, ⟨5, _⟩ => ⟨S16384x16384, .f32⟩
  | .hbm, ⟨6, _⟩ => ⟨S16384x1, .f32⟩
  | .hbm, ⟨7, _⟩ => ⟨S1x16384, .f32⟩
  | .hbm, ⟨8, _⟩ => ⟨S16384x16384, .f32⟩
  | .hbm, ⟨9, _⟩ => ⟨S16384x16384, .f32⟩
  | .hbm, ⟨10, _⟩ => ⟨S16384x16384, .f32⟩
  | .hbm, ⟨11, _⟩ => ⟨S_, .f32⟩
  | .hbm, ⟨12, _⟩ => ⟨S16384x16384, .f32⟩
  | .hbm, ⟨13, _⟩ => ⟨S16384x16384, .f32⟩
  | .hbm, ⟨14, _⟩ => ⟨S16384x16384, .f32⟩
  | .hbm, ⟨15, _⟩ => ⟨S_, .f32⟩
  | .hbm, ⟨16, _⟩ => ⟨S_, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩

abbrev nD : Nat := 1
abbrev τ : Topo := Topo.v7x

variable {F : FTy → Type} [FloatOps F]

class Facts₀ : Prop where
  reducesTo_S16384x3_S16384_d1 : S16384x3.ReducesTo [1] S16384
  h_S_ : 0 < S_.numel
  transposes_S16384x3_S3x16384_1_0 : S16384x3.Transposes [1, 0] S3x16384
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S_d0_1 : S16384x16384.ReducesTo [0, 1] S_
  dot_S16384x3_S3x16384_S16384x16384_1_0_0_1_n_n_wf : DotDims.WF S16384x3 S3x16384 S16384x16384 [1] [0] [0] [1] [] []

variable [Facts₀]

def dot_S16384x3_S3x16384_S16384x16384_1_0_0_1_n_n : DotDims S16384x3 S3x16384 S16384x16384 where
  lhsContracting := [1]
  rhsContracting := [0]
  lhsNonContracting := [0]
  rhsNonContracting := [1]
  lhsBatch := []
  rhsBatch := []
  wf := dot_S16384x3_S3x16384_S16384x16384_1_0_0_1_n_n_wf

class Facts : Prop extends Facts₀ where

variable [Facts]
-- ==== Proof.KernelPieces.lean ====
/-
  What the kernel body leaves in the accumulator block at a grid point, as the body's own arithmetic.

  At the first point the body stores the zero block, reads it back and stores the payload of the input block over it;
  at every later point it stores the payload of the input block over what the point before left.
-/
import proofs.«133765_j69810398429869_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- A later point: over the accumulator `xo` the body leaves the payload of the input block `x` and `xo`. -/
theorem out_B (c : Dev nD) (i : grid0.Coords) (a1 : Memref sig .tc .vmem S2048x3 .f32) (h1 : a1.IsWhole)
    (a2 : Memref sig .tc .vmem S1x4 .f32) (h2 : a2.IsWhole) (hc : ¬cond0_0 i) (x : Vec F S2048x3 .f32) (xo : Vec F S1x4 .f32) :
    out0_B_1 c i a1 h1 a2 h2 hc x xo = k0_pay2 x xo := by
  unfold out0_B_1
  rw [View.read_writes_eq_canon _ _ _ (cover0_B_1 c i a1 h1 a2 h2 hc x xo)]
  unfold kernelRun0_B
  dsimp only
  rw [View.canon_unit_zero hz]
  simp only [View.readAt_eq_ld, h1.read_unread, h2.read_unread, View.ld_unit_zero (S := S2048x3) hz,
    View.ld_unit_zero (S := S1x4) hz]

/-- The first point: the body leaves the payload of the input block `x` and the zero block. -/
theorem out_A (c : Dev nD) (i : grid0.Coords) (a1 : Memref sig .tc .vmem S2048x3 .f32) (h1 : a1.IsWhole)
    (a2 : Memref sig .tc .vmem S1x4 .f32) (h2 : a2.IsWhole) (hc : cond0_0 i) (x : Vec F S2048x3 .f32) :
    out0_A_1 c i a1 h1 a2 h2 hc x = k0_pay2 x (k0_pay1 (F := F)) := by
  unfold out0_A_1
  rw [View.read_writes_eq_canon _ _ _ (cover0_A_1 c i a1 h1 a2 h2 hc x)]
  unfold kernelRun0_A
  dsimp only
  sl_unfold_words
  rw [View.canon_cons_unit_zero (S := S1x4) hz, View.readCov_unit_zero (S := S1x4) _ hz]
  simp only [View.readAt_eq_ld, h1.read_unread, View.ld_unit_zero (S := S2048x3) hz]

end Cert.KernelIdeal.Acc

end
-- ==== Proof.LibKeepdims.lean ====
/-
  Keepdims forms read at an index, for any element type and any extents: a vector cast to a column, a column
  broadcast along rows, the host's dimension-numbered broadcasts between a scalar, a vector, a row, a column and
  a matrix, and a sum along the rows of a matrix (the kernel's lane reduction and the host's reduce) as a finite
  sum over the row's entries.
-/
import Idealize.ShloMosaic.Lib.ValueIdx
import Idealize.ShloMosaic.Lib.Pipeline.Value
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A scalar broadcast by dimension numbers to any shape reads the scalar everywhere. -/
theorem bcastInDim_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A vector `[a]` placed on axis 0 of the column `[a, 1]`. -/
theorem bcastInDim_a_a1_apply {a : ℕ} (dims : Fin 1 → Fin 2) (hd : dims 0 = 0)
    (h : (⟨1, ![a]⟩ : Shape).BroadcastsInDim ⟨2, ![a, 1]⟩ dims) (x : (⟨1, ![a]⟩ : Shape).Idx → α) (p : Fin a) (u : Fin 1) :
    broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else ((ix2 p u : (⟨2, ![a, 1]⟩ : Shape).Idx) (dims 0)).val
    rw [hd]
    split
    · have := p.isLt; omega
    · rfl

/-- A column `[a, 1]` broadcast by dimension numbers `[0, 1]` to `[a, b]`. -/
theorem bcastInDim_a1_ab_apply {a b : ℕ} (dims : Fin 2 → Fin 2) (hd0 : dims 0 = 0) (hd1 : dims 1 = 1)
    (h : (⟨2, ![a, 1]⟩ : Shape).BroadcastsInDim ⟨2, ![a, b]⟩ dims) (x : (⟨2, ![a, 1]⟩ : Shape).Idx → α) (p : Fin a) (c : Fin b) :
    broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else ((ix2 p c : (⟨2, ![a, b]⟩ : Shape).Idx) (dims 0)).val
    rw [hd0]
    split
    · have := p.isLt; omega
    · rfl
  | ⟨1, _⟩ => rfl

/-- A vector `[b]` placed on axis 1 of the row `[1, b]`. -/
theorem bcastInDim_b_1b_apply {b : ℕ} (dims : Fin 1 → Fin 2) (hd : dims 0 = 1)
    (h : (⟨1, ![b]⟩ : Shape).BroadcastsInDim ⟨2, ![1, b]⟩ dims) (x : (⟨1, ![b]⟩ : Shape).Idx → α) (u : Fin 1) (c : Fin b) :
    broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else ((ix2 u c : (⟨2, ![1, b]⟩ : Shape).Idx) (dims 0)).val
    rw [hd]
    split
    · have := c.isLt; omega
    · rfl

/-- A row `[1, b]` broadcast by dimension numbers `[0, 1]` to `[a, b]`. -/
theorem bcastInDim_1b_ab_apply {a b : ℕ} (dims : Fin 2 → Fin 2) (hd0 : dims 0 = 0) (hd1 : dims 1 = 1)
    (h : (⟨2, ![1, b]⟩ : Shape).BroadcastsInDim ⟨2, ![a, b]⟩ dims) (x : (⟨2, ![1, b]⟩ : Shape).Idx → α) (p : Fin a) (c : Fin b) :
    broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ => rfl
  | ⟨1, _⟩ =>
    show c.val = if b = 1 then 0 else ((ix2 p c : (⟨2, ![a, b]⟩ : Shape).Idx) (dims 1)).val
    rw [hd1]
    split
    · have := c.isLt; omega
    · rfl

/-- The lane reduction along the rows of a matrix, at the ideal values, is the sum of the row's entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (funext fun c => Fin.ext (by
    match c with
    | ⟨0, _⟩ => rfl
    | ⟨1, _⟩ => rfl))

/-- The host's sum along the rows of a matrix, at the ideal values, is the initial value plus the row's entries. -/
theorem hostRowSum_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (hu : 0 < (⟨0, ![]⟩ : Shape).numel)
    (h : (⟨2, ![a, b]⟩ : Shape).Reduces [1] ⟨1, ![a]⟩) (p : Fin a) :
    Host.reduceAdd x init h' hu (ix1 p) = init ix0 + ∑ k : Fin b, x (ix2 p k) := by
  unfold Host.reduceAdd
  rw [Ideal.hostReduceAdd_def]
  refine (Ideal.hostReduceAdd_single h' h x _ (ix1 p)).trans ?_
  have e : init (Shape.Idx.first hu) = init ix0 := congrArg init (funext fun c => c.elim0)
  rw [e]
  refine congrArg (init ix0 + ·) ?_
  exact Finset.sum_congr rfl fun k _ => congrArg x (funext fun c => Fin.ext (by
    match c with
    | ⟨0, _⟩ => rfl
    | ⟨1, _⟩ => rfl))

end Cert.Keepdims

end
-- ==== Proof.LibColumnSum.lean ====
/-
  Sums along axis 0 read at an index, for any extents, at the ideal values: the kernel's reduction along axis 0 of an
  `[a, b]` matrix is at column `q` the finite sum over the rows of the entries of that column, and the host's sum
  of a vector `[a]` into a scalar is the initial value plus the finite sum of the entries.
-/
import Idealize.ShloMosaic.Lib.ValueIdx
import Idealize.ShloMosaic.PureOps.Ideal.Laws

noncomputable section

namespace Cert.ColumnSum

open Idealize.ShloMosaic Idealize.ShloMosaic.ValueIdx

/-- The reduction along axis 0 of a matrix, at the ideal values, is the sum of the column's entries. -/
theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  exact Finset.sum_congr rfl fun k _ => congrArg src (funext fun c => Fin.ext (by
    match c with
    | ⟨0, _⟩ => rfl
    | ⟨1, _⟩ => rfl))

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The host's sum of all the entries of a vector, at the ideal values, is the initial value plus the entries. -/
theorem hostVecSum_apply {a : ℕ} (x : FVec Ideal ⟨1, ![a]⟩ .f32) (init : (⟨0, ![]⟩ : Shape).Idx → Ideal .f32)
    (h' : (⟨1, ![a]⟩ : Shape).ReducesTo [0] ⟨0, ![]⟩) (hu : 0 < (⟨0, ![]⟩ : Shape).numel) (j : (⟨0, ![]⟩ : Shape).Idx) :
    Host.reduceAdd x init h' hu j = init ix0 + ∑ k : Fin a, x (ix1 k) := by
  unfold Host.reduceAdd
  rw [Ideal.hostReduceAdd_def]
  refine (Ideal.hostReduceAdd_total h' (fun b => b.elim0) x _ j).trans ?_
  have e : init (Shape.Idx.first hu) = init ix0 := congrArg init (funext fun c => c.elim0)
  rw [e, sum_idx1]

end Cert.ColumnSum

end
-- ==== Proof.PayloadAt.lean ====
/-
  The body's arithmetic at an index, over the extended reals.

  The body adds to the accumulator block [1, 4] a block built from the input block x [2048, 3]: in columns 0..2 the
  column sums ∑_r x[r, q], in column 3 the sum over the rows of the rows' squared norms ∑_r ∑_j x[r, j]².
-/
import proofs.«133765_j69810398429869_2_alg».proof.Proof.Gen.KernelIdeal.Skeleton
import proofs.«133765_j69810398429869_2_alg».proof.Proof.LibKeepdims
import proofs.«133765_j69810398429869_2_alg».proof.Proof.LibColumnSum
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.ValueIdx

namespace Cert.KernelIdeal.Acc

open Cert.KernelIdeal Cert.KernelIdeal.Gen

/-- Column `q` of 3, as a column of the accumulator's 4. -/
abbrev vcol (q : Fin 3) : Fin 4 := ⟨q.val, by have := q.isLt; omega⟩

/-- Columns 0..2: the accumulator plus the column sum of the input block. -/
theorem pay2_col (x : FVec Ideal S2048x3 .f32) (acc : FVec Ideal S1x4 .f32) (q : Fin 3) :
    k0_pay2 (F := Ideal) x acc (ix2 (0 : Fin 1) (vcol q)) = acc (ix2 (0 : Fin 1) (vcol q)) + ∑ r : Fin 2048, x (ix2 r q) := by
  unfold k0_pay2
  dsimp only
  refine (addf_apply _ _ _).trans ?_
  refine congrArg₂ (· + ·) (congrFun (shapeCast_self acc _) _) ?_
  refine (concatenate_pair_apply_left (t := S1x4) (s₁ := S1x3) (s₂ := S1x1) (1 : Fin 2) _ _ _ (ix2 (0 : Fin 1) (vcol q)) rfl (ix2 (0 : Fin 1) q) (fun b => ?_)).trans ?_
  · match b with
    | ⟨0, _⟩ => rfl
    | ⟨1, _⟩ => rfl
  refine (shapeCast_a_1a_apply _ _ (0 : Fin 1) q).trans ?_
  exact Cert.ColumnSum.colSum_apply x _ _ _ q

/-- Column 3: the accumulator plus the sum over the rows of the squared norms of the rows. -/
theorem pay2_sq (x : FVec Ideal S2048x3 .f32) (acc : FVec Ideal S1x4 .f32) :
    k0_pay2 (F := Ideal) x acc (ix2 (0 : Fin 1) (3 : Fin 4))
      = acc (ix2 (0 : Fin 1) (3 : Fin 4)) + ∑ r : Fin 2048, ∑ j : Fin 3, x (ix2 r j) * x (ix2 r j) := by
  unfold k0_pay2
  dsimp only
  refine (addf_apply _ _ _).trans ?_
  refine congrArg₂ (· + ·) (congrFun (shapeCast_self acc _) _) ?_
  refine (concatenate_pair_apply_right (t := S1x4) (s₁ := S1x3) (s₂ := S1x1) (1 : Fin 2) _ _ _ (ix2 (0 : Fin 1) (3 : Fin 4)) rfl rfl (ix2 (0 : Fin 1) (0 : Fin 1))
    (fun b hb => ?_) rfl).trans ?_
  · match b with
    | ⟨0, _⟩ => rfl
    | ⟨1, _⟩ => exact absurd rfl hb
  refine (shapeCast_a_1a_apply _ _ (0 : Fin 1) (0 : Fin 1)).trans ?_
  refine (Cert.ColumnSum.colSum_apply _ _ _ _ (0 : Fin 1)).trans ?_
  refine Finset.sum_congr rfl fun r _ => ?_
  refine (Cert.Keepdims.shapeCast_a_a1_apply _ _ r (0 : Fin 1)).trans ?_
  exact Cert.Keepdims.rowSum_apply (mulf x x) _ _ _ r

/-- The zero block at any index is 0. -/
theorem pay1_apply (j : S1x4.Idx) : k0_pay1 (F := Ideal) j = 0 := by
  unfold k0_pay1
  exact Ideal.ofBits_zero_f32

end Cert.KernelIdeal.Acc

end
-- ==== Proof.EnergyLaw.lean ====
/-
  The algebra behind the pairwise-distance energy, over the reals.

  For points x_i in a finite-dimensional space, with s_i = ∑_j x_ij², the sum over all ordered pairs of the squared
  distances s_i + s_k - 2 x_i·x_k is 2·N·∑_i s_i - 2·‖∑_i x_i‖²: the first two terms each contribute N copies of the
  total of the s_i, and the cross term factors as the square of the coordinate sums. Also: a sum over 16384 rows
  is the sum over 8 blocks of the sums over each block's 2048 rows.
-/
import Idealize.ShloMosaic.PureOps.Ideal

namespace Cert.EnergyLaw

/-- The cross term: summing x_i·x_k over all ordered pairs is the squared norm of the sum of the points. -/
theorem cross_sum {ι κ : Type*} [Fintype ι] [Fintype κ] (x : ι → κ → ℝ) :
    ∑ i, ∑ k, ∑ j, x i j * x k j = ∑ j, (∑ i, x i j) * (∑ i, x i j) := by
  calc ∑ i, ∑ k, ∑ j, x i j * x k j = ∑ i, ∑ j, ∑ k, x i j * x k j :=
        Finset.sum_congr rfl fun i _ => Finset.sum_comm
    _ = ∑ j, ∑ i, ∑ k, x i j * x k j := Finset.sum_comm
    _ = ∑ j, (∑ i, x i j) * (∑ k, x k j) := by
        refine Finset.sum_congr rfl fun j _ => ?_
        rw [Finset.sum_mul_sum]

/-- The energy: the sum over all ordered pairs (i, k) of s_i + s_k - 2 x_i·x_k, with s_i the squared norm of x_i, is
    2·N·∑ s_i - 2·‖∑ x_i‖². -/
theorem pair_energy {ι κ : Type*} [Fintype ι] [Fintype κ] (x : ι → κ → ℝ) :
    ∑ i, ∑ k, ((∑ j, x i j * x i j) + (∑ j, x k j * x k j) - 2 * ∑ j, x i j * x k j)
      = 2 * (Fintype.card ι : ℝ) * (∑ i, ∑ j, x i j * x i j) - 2 * ∑ j, (∑ i, x i j) * (∑ i, x i j) := by
  have h1 : ∀ i, ∑ k, ((∑ j, x i j * x i j) + (∑ j, x k j * x k j) - 2 * ∑ j, x i j * x k j)
      = (Fintype.card ι : ℝ) * (∑ j, x i j * x i j) + (∑ k, ∑ j, x k j * x k j) - 2 * ∑ k, ∑ j, x i j * x k j := by
    intro i
    rw [Finset.sum_sub_distrib, Finset.sum_add_distrib, Finset.sum_const, Finset.card_univ, nsmul_eq_mul,
      ← Finset.mul_sum]
  rw [Finset.sum_congr rfl fun i _ => h1 i, Finset.sum_sub_distrib, Finset.sum_add_distrib, ← Finset.mul_sum,
    Finset.sum_const, Finset.card_univ, nsmul_eq_mul, ← Finset.mul_sum, cross_sum]
  ring

/-- For 16384 points the factor 2·N is 32768. -/
theorem energy_16384 {κ : Type*} [Fintype κ] (x : Fin 16384 → κ → ℝ) :
    ∑ p, ∑ q, ((∑ k, x p k * x p k) + (∑ k, x q k * x q k) - 2 * ∑ k, x p k * x q k)
      = 32768 * (∑ p, ∑ j, x p j * x p j) - 2 * ∑ j, (∑ p, x p j) * (∑ p, x p j) := by
  rw [pair_energy, Fintype.card_fin]
  norm_num

/-- Row `2048·s + r` of 16384, from a block `s` of 8 and a row `r` of 2048 inside it. -/
def blockRow (s : Fin 8) (r : Fin 2048) : Fin 16384 := ⟨2048 * s.val + r.val, by have := s.isLt; have := r.isLt; omega⟩

/-- The rows of 16384 are the pairs (block, row in the block). -/
def blockEquiv : Fin 8 × Fin 2048 ≃ Fin 16384 where
  toFun p := blockRow p.1 p.2
  invFun i := (⟨i.val / 2048, by have := i.isLt; omega⟩, ⟨i.val % 2048, by omega⟩)
  left_inv p := by
    obtain ⟨s, r⟩ := p
    have := s.isLt; have := r.isLt
    refine Prod.ext (Fin.ext ?_) (Fin.ext ?_)
    · show (2048 * s.val + r.val) / 2048 = s.val; omega
    · show (2048 * s.val + r.val) % 2048 = r.val; omega
  right_inv i := by
    refine Fin.ext ?_
    show 2048 * (i.val / 2048) + i.val % 2048 = i.val; omega

/-- A sum over the 16384 rows, block by block. -/
theorem sum_blocks {M : Type*} [AddCommMonoid M] (f : Fin 16384 → M) :
    ∑ s : Fin 8, ∑ r : Fin 2048, f (blockRow s r) = ∑ i, f i := by
  rw [← Fintype.sum_prod_type']
  exact Fintype.sum_equiv blockEquiv _ _ fun _ => rfl

end Cert.EnergyLaw
-- ==== Proof.LibBatchNorm.lean ====
/-
  Column normalisation ("batch norm") on the extended reals, for data that are finite reals.

  For a finite family of reals `x i`, `n` their number, `m = (∑ x)/n` their mean:
  * the mean of the squares minus the square of the mean is the mean of the squared deviations
    (`var_forms`):  (∑ x²)/n − m·m = (∑ (x − m)²)/n ;
  * scaling by `γ·r` and shifting by `β − m·(γ·r)` is centring, scaling by `r`, then by `γ`, then shifting by `β`
    (`affine_forms`):  x·(γ·r) + (β − m·(γ·r)) = (x − m)·r·γ + β .
  Both are identities of real numbers; they are stated on the extended reals with the quotient `Ideal.div` the
  idealised float division, because that is where two programs that compute a variance or a normalised value in the two
  ways have to be compared. They need every datum to be a real: at an infinity `∞ − ∞` is not `0`.
  Also here: a finite sum of reals, and of products of reals, is a real (`sum_coe`, `sum_mul_coe`), the idealised quotient by a nonzero real is the real
  quotient (`div_coe_coe`), and the idealised reciprocal square root of a positive real is a real (`rsqrt_coe_pos`).
-/
import Idealize.ShloMosaic.PureOps.Ideal

noncomputable section

namespace Idealize.ShloMosaic.LibBatchNorm

open Idealize.ShloMosaic

/-- A finite sum of reals, formed on the extended reals, is the real sum. -/
theorem sum_coe {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A finite sum of products of reals (a dot product), formed on the extended reals, is the real one. -/
theorem sum_mul_coe {ι : Type*} (s : Finset ι) (a b : ι → ℝ) :
    (∑ i ∈ s, ((a i : ℝ) : EReal) * ((b i : ℝ) : EReal)) = ((∑ i ∈ s, a i * b i : ℝ) : EReal) := by
  simp only [← EReal.coe_mul, sum_coe]

/-- The idealised quotient of a real by a nonzero real is the real quotient. -/
theorem div_coe_coe (a : ℝ) {n : ℝ} (hn : n ≠ 0) : Ideal.div (a : EReal) (n : EReal) = ((a / n : ℝ) : EReal) := by
  rw [Ideal.div_coe hn, ← EReal.coe_mul]; congr 1; rw [mul_one_div]

/-- The idealised reciprocal square root of a positive real is the real `(√r)⁻¹`. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- Over the reals: the mean of the squares minus the squared mean is the mean of the squared deviations. -/
theorem var_forms_real {ι : Type*} [Fintype ι] (x : ι → ℝ) {n : ℝ} (hn : n ≠ 0) (hcard : (Fintype.card ι : ℝ) = n) :
    (∑ i, x i * x i) / n - ((∑ i, x i) / n) * ((∑ i, x i) / n)
      = (∑ i, (x i - (∑ j, x j) / n) * (x i - (∑ j, x j) / n)) / n := by
  set S := ∑ j, x j with hS
  have h1 : ∑ i, (x i - S / n) * (x i - S / n) = ∑ i, x i * x i - 2 * (S / n) * S + n * ((S / n) * (S / n)) := by
    have : ∀ i, (x i - S / n) * (x i - S / n) = x i * x i - 2 * (S / n) * x i + (S / n) * (S / n) := fun i => by ring
    simp only [this, Finset.sum_add_distrib, Finset.sum_sub_distrib, ← Finset.mul_sum, Finset.sum_const, Finset.card_univ,
      nsmul_eq_mul, hcard, ← hS]
    ring
  rw [h1]; field_simp; ring

/-- On the extended reals, with the idealised quotient, for real data (`var_forms_real` carried over). -/
theorem var_forms {ι : Type*} [Fintype ι] (x : ι → ℝ) {n : ℝ} (hn : n ≠ 0) (hcard : (Fintype.card ι : ℝ) = n) :
    Ideal.div (∑ i, ((x i : ℝ) : EReal) * ((x i : ℝ) : EReal)) (n : EReal)
        - Ideal.div (∑ i, ((x i : ℝ) : EReal)) (n : EReal) * Ideal.div (∑ i, ((x i : ℝ) : EReal)) (n : EReal)
      = Ideal.div (∑ i, (((x i : ℝ) : EReal) - Ideal.div (∑ j, ((x j : ℝ) : EReal)) (n : EReal))
          * (((x i : ℝ) : EReal) - Ideal.div (∑ j, ((x j : ℝ) : EReal)) (n : EReal))) (n : EReal) := by
  simp only [← EReal.coe_mul, sum_coe, div_coe_coe _ hn, ← EReal.coe_sub]
  exact congrArg _ (var_forms_real x hn hcard)

/-- Scale-and-shift against centre-scale-shift, for reals read as extended reals. -/
theorem affine_forms (x m r g b : ℝ) :
    (x : EReal) * ((g : EReal) * (r : EReal)) + ((b : EReal) - (m : EReal) * ((g : EReal) * (r : EReal)))
      = ((x : EReal) - (m : EReal)) * (r : EReal) * (g : EReal) + (b : EReal) := by
  simp only [← EReal.coe_mul, ← EReal.coe_sub, ← EReal.coe_add]
  exact congrArg _ (by ring)

end Idealize.ShloMosaic.LibBatchNorm

end
-- ==== Proof.Accumulate.lean ====
/-
  What the accumulator block holds after each grid point, for an argument array of real numbers.

  Point t reads rows 2048·t .. 2048·t + 2047 of the argument. After point n the accumulator's column q < 3 holds the sum
  of column q over the rows of the blocks 0..n, and its column 3 holds the sum of the squared norms of those rows: by
  induction on the point, the first point adding its block to the zero block, every later point adding its block to
  what the point before left. After the last point these are sums over all 16384 rows.
-/
import proofs.«133765_j69810398429869_2_alg».proof.Proof.KernelPieces
import proofs.«133765_j69810398429869_2_alg».proof.Proof.PayloadAt
import proofs.«133765_j69810398429869_2_alg».proof.Proof.EnergyLaw
import proofs.«133765_j69810398429869_2_alg».proof.Proof.LibBatchNorm

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.EnergyLaw Idealize.ShloMosaic.LibBatchNorm

variable (m : (ℓ : Loc nD τ sig) → Buf (Elt Ideal) ℓ)

/-- Row r, column j of the block point t reads is row 2048·t + r, column j of the argument. -/
theorem iblk_apply (c : Dev nD) (t : Fin cfg0.N) (r : Fin 2048) (j : Fin 3) (p : Fin 16384) (hp : p.val = 2048 * t.val + r.val) :
    (iblk m c 0 t : Vec Ideal S2048x3 .f32) (ix2 r j) = m ((c : Thread nD τ).loc main_arg0) (ix2 p j) := by
  have hi : win0_0.index t 0 = t.val ∧ win0_0.index t 1 = 0 :=
    (by decide +kernel : ∀ t : Fin grid0.N, win0_0.index t 0 = t.val ∧ win0_0.index t 1 = 0) t
  unfold iblk
  rw [View.read_apply]
  show V m c main_arg0 _ = m (c.tc.loc main_arg0) _
  refine (congrFun (V_main_arg0 m c) _).trans ?_
  refine congrArg _ (funext fun a => Fin.ext ?_)
  match a with
  | ⟨0, _⟩ => show win0_0.index t 0 * 2048 + 1 * r.val = p.val; rw [hi.1, hp]; omega
  | ⟨1, _⟩ => show win0_0.index t 1 * 3 + 1 * j.val = j.val; rw [hi.2]; omega

/-- THE ACCUMULATION at one entry of the block: if at every point the body adds the real number `g t` to that entry,
    then after point n the entry holds the sum of `g` over the points 0..n. -/
theorem outsAt_apply (c : Dev nD) (j : S1x4.Idx) (g : ℕ → ℝ)
    (hg : ∀ (t : Fin cfg0.N) (acc : FVec Ideal S1x4 .f32),
      k0_pay2 (F := Ideal) (iblk m c 0 t) acc j = acc j + ((g t.val : ℝ) : EReal)) :
    ∀ (n : ℕ) (h : n < cfg0.N), outsAt0 m c n h j = ((∑ s ∈ Finset.range (n + 1), g s : ℝ) : EReal)
  | 0, h => by
    have e : outsAt0 m c 0 h = k0_pay2 (iblk m c 0 ⟨0, h⟩) (k0_pay1 (F := Ideal)) :=
      (outsAt0_A m c ⟨0, h⟩ rfl).trans (out_A ..)
    rw [e, hg ⟨0, h⟩, pay1_apply, zero_add, Finset.sum_range_one]
  | n + 1, h => by
    have hN : cfg0.N = 8 := N_0
    have hB : ¬(⟨n + 1, h⟩ : Fin cfg0.N).val % 8 = 0 := by dsimp only; omega
    have e : outsAt0 m c (n + 1) h = k0_pay2 (iblk m c 0 ⟨n + 1, h⟩) (outsAt0 m c n (Nat.lt_of_succ_lt h)) :=
      (outsAt0_B m c ⟨n + 1, h⟩ hB).trans (out_B ..)
    rw [e, hg ⟨n + 1, h⟩, outsAt_apply c j g hg n, Finset.sum_range_succ _ (n + 1), EReal.coe_add]

/-- A sum over the points 0..7 of a function of the block. -/
theorem sum_range_blocks (f : Fin 8 → ℝ) :
    ∑ s ∈ Finset.range 8, (if h : s < 8 then f ⟨s, h⟩ else 0) = ∑ s : Fin 8, f s := by
  rw [Finset.sum_range]
  exact Finset.sum_congr rfl fun s _ => dif_pos s.isLt

variable (xr : Fin 16384 → Fin 3 → ℝ)

/-- Block s's sum of column q. -/
def colBlock (q : Fin 3) (s : Fin 8) : ℝ := ∑ r : Fin 2048, xr (blockRow s r) q
/-- Block s's sum of the squared norms of its rows. -/
def sqBlock (s : Fin 8) : ℝ := ∑ r : Fin 2048, ∑ j : Fin 3, xr (blockRow s r) j * xr (blockRow s r) j

/-- After the last point, column q < 3 of the accumulator holds the sum of column q of the argument. -/
theorem last_col (c : Dev nD) (hx : ∀ p j, m ((c : Thread nD τ).loc main_arg0) (ix2 p j) = ((xr p j : ℝ) : EReal))
    (h7 : 7 < cfg0.N) (q : Fin 3) :
    outsAt0 m c 7 h7 (ix2 (0 : Fin 1) (vcol q)) = ((∑ p : Fin 16384, xr p q : ℝ) : EReal) := by
  have hN : cfg0.N = 8 := N_0
  rw [outsAt_apply m c (ix2 (0 : Fin 1) (vcol q)) (fun s => if h : s < 8 then colBlock xr q ⟨s, h⟩ else 0) (fun t acc => ?_) 7 h7]
  · rw [sum_range_blocks]
    exact congrArg _ (sum_blocks fun p => xr p q)
  · have ht : t.val < 8 := by have := t.isLt; omega
    refine (pay2_col (iblk m c 0 t) acc q).trans ?_
    refine congrArg (acc (ix2 (0 : Fin 1) (vcol q)) + ·) ?_
    rw [dif_pos ht]
    unfold colBlock
    rw [← sum_coe]
    exact Finset.sum_congr rfl fun r _ => (iblk_apply m c t r q (blockRow ⟨t.val, ht⟩ r) rfl).trans (hx _ _)

/-- After the last point, column 3 of the accumulator holds the sum of the squared norms of the argument's rows. -/
theorem last_sq (c : Dev nD) (hx : ∀ p j, m ((c : Thread nD τ).loc main_arg0) (ix2 p j) = ((xr p j : ℝ) : EReal))
    (h7 : 7 < cfg0.N) :
    outsAt0 m c 7 h7 (ix2 (0 : Fin 1) (3 : Fin 4)) = ((∑ p : Fin 16384, ∑ j : Fin 3, xr p j * xr p j : ℝ) : EReal) := by
  have hN : cfg0.N = 8 := N_0
  rw [outsAt_apply m c (ix2 (0 : Fin 1) (3 : Fin 4)) (fun s => if h : s < 8 then sqBlock xr ⟨s, h⟩ else 0) (fun t acc => ?_) 7 h7]
  · rw [sum_range_blocks]
    exact congrArg _ (sum_blocks fun p => ∑ j : Fin 3, xr p j * xr p j)
  · have ht : t.val < 8 := by have := t.isLt; omega
    refine (pay2_sq (iblk m c 0 t) acc).trans ?_
    refine congrArg (acc (ix2 (0 : Fin 1) (3 : Fin 4)) + ·) ?_
    rw [dif_pos ht]
    unfold sqBlock
    rw [← sum_coe]
    refine Finset.sum_congr rfl fun r _ => ?_
    rw [← sum_coe]
    refine Finset.sum_congr rfl fun j _ => ?_
    rw [iblk_apply m c t r j (blockRow ⟨t.val, ht⟩ r) rfl, hx, EReal.coe_mul]

end Cert.KernelIdeal.Acc

end
-- ==== Proof.FinalArray.lean ====
/-
  The kernel's run read back: the accumulator's array after the region, and the program's result after the host lines.

  The accumulator block's index never moves, so it is written back once, after the last point, and its one block is the
  whole [1, 4] array: the array ends holding what the last point left. The host lines after the region then compute
  32768 · a[0,3] - 2 · (0 + ∑_j a[0,j]²) from that array a.
-/
import proofs.«133765_j69810398429869_2_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ) (ρ : Dev nD → PrngReg)

theorem lt7 : 7 < cfg0.N := by rw [show cfg0.N = 8 from N_0]; decide

/-- What the last point leaves in the accumulator block, as contents of the [1, 4] array. -/
abbrev result (c : Dev nD) : Buf (Elt F) ((c : Thread nD τ).loc main_v0) := outsAt0 m c 7 lt7

/-- The one write-back, after point 7, writes it: block (0, 0) of the [1, 4] array is the array. -/
theorem flushed_eq (c : Dev nD) (t : Fin cfg0.N) (hf : (cfg0.win 1).flush t = true) :
    (dats m 0 c).flushed 1 t = ((cfg0.win 1).blk t).view.read (Elt F) (result m c) := by
  have hN : cfg0.N = 8 := N_0
  have h7 : t.val = 7 := by have := (flush0_1 t).mp hf; have := t.isLt; omega
  obtain rfl : t = t0_7 := Fin.ext h7
  show (cfg0.win 1).cut (grid0.coords t0_7) ((dats m 0 c).after 1 t0_7) = _
  rw [after0_1]
  have hz' : (fun a => win0_1.index t0_7 a * main_v0.ty.shape.size a) = fun _ => 0 := funext fun a => by fin_cases a <;> decide
  exact (Memref.read_access_unit_zero (Elt F) main_v0 hz' (fun a => by rw [congrFun hz' a]; simp) (result m c)).symm

/-- So the array ends holding what the last point left. -/
theorem final_o (c : Dev nD) : (dats m 0 c).arrAt 1 cfg0.N = result m c :=
  (dats m 0 c).arrAt_eq_of_cover 1 (result m c) (flushed_eq m c) fun i =>
    ⟨t0_7, (flush0_1 t0_7).mpr rfl, by
      show i ∈ ((View.whole main_v0).slice (win0_1.rect t0_7)).set
      rw [View.set_slice_whole, Rect.mem_set_unit]
      intro a
      have h0 : (i 0 : Nat) < 1 := (i 0).isLt
      have h1 : (i 1 : Nat) < 4 := (i 1).isLt
      match a with
      | ⟨0, _⟩ => show win0_1.index t0_7 0 * win0_1.size 0 ≤ (i 0 : Nat) ∧ (i 0 : Nat) < win0_1.index t0_7 0 * win0_1.size 0 + win0_1.xsize (grid0.coords t0_7) 0
                  rw [show win0_1.index t0_7 0 * win0_1.size 0 = 0 from by decide +kernel, show win0_1.xsize (grid0.coords t0_7) 0 = 1 from by decide +kernel]; omega
      | ⟨1, _⟩ => show win0_1.index t0_7 1 * win0_1.size 1 ≤ (i 1 : Nat) ∧ (i 1 : Nat) < win0_1.index t0_7 1 * win0_1.size 1 + win0_1.xsize (grid0.coords t0_7) 1
                  rw [show win0_1.index t0_7 1 * win0_1.size 1 = 0 from by decide +kernel, show win0_1.xsize (grid0.coords t0_7) 1 = 4 from by decide +kernel]; omega⟩

/-- The host lines after the region, as one function of the accumulator array a:
    32768 · a[0,3] - 2 · (0 + ∑_j a[0,j]·a[0,j]). -/
def tail (a : FVec F S1x4 .f32) : FVec F S_ .f32 :=
  subf
    (mulf (constant (F := F) S_ .f32 0x47000000#32)
      (shapeCast S_ (extractStridedSlice S1x1 ![0, 3] a slices_S1x4_S1x1_0_3) shapeCasts_S1x1_S_))
    (mulf (constant (F := F) S_ .f32 0x40000000#32)
      (Host.reduceAdd (F := F)
        (mulf (shapeCast S3 (extractStridedSlice S1x3 ![0, 0] a slices_S1x4_S1x3_0_0) shapeCasts_S1x3_S3)
          (shapeCast S3 (extractStridedSlice S1x3 ![0, 0] a slices_S1x4_S1x3_0_0) shapeCasts_S1x3_S3))
        (constant (F := F) S_ .f32 0x00000000#32) reducesTo_S3_S_d0 h_S_))

/-- The program's result buffer after the host lines is that function of what the last point left. -/
theorem tail_eq (c : Dev nD) :
    Pipeline.afterTail₀ cfgs (dats m) 0 (V0 m) [hostOps1] c main_v9 = tail (result m c) := by
  have hA : Pipeline.withArrays (cfgs 0).spec c (V0 m c) (fun w => (dats m 0 c).arrAt w (cfgs 0).N) (Proc.devRef .tc main_v0)
      = result m c :=
    (Pipeline.withArrays_arr spec0 launch0.win.arr_inj c _ _ 1).trans (final_o m c)
  unfold Pipeline.afterTail₀
  show StableHlo.after hostOps1 _ (Proc.devRef .tc main_v9) = _
  after_results
  rw [hA]
  rfl

/-- The run, read: the result at the host lines' function of what the last point left, the argument unchanged. -/
theorem run : θ_run defs (onTc (τ := τ) (main (F := F))) ⟨m, fun _ => 0, ρ⟩ fun r => ∀ c : Dev nD,
      r.2.mem ((c : Thread nD τ).loc main_v9) = tail (result m c)
      ∧ r.2.mem ((c : Thread nD τ).loc main_arg0) = m ((c : Thread nD τ).loc main_arg0) :=
  (θ_run defs _ _).mono (fun _ h c =>
      ⟨((h c).2 main_v9 (Pipeline.mem_restRefs_of main_v9 rfl (fun w => by fin_cases w <;> decide))).trans (tail_eq m c),
        ((h c).1 0).trans (((dats m 0 c).arrAt_in 0 rfl _).trans ((A_eq m c 0).trans (V_main_arg0 m c)))⟩)
    (run_main m ρ)

end Cert.KernelIdeal.Acc

end
-- ==== Proof.Consts.lean ====
/-
  The float constants the two programs spell, as the extended reals they denote: 2.0 and 32768.0 = 2 · 16384.
-/
import Idealize.ShloMosaic.PureOps.Ideal

noncomputable section

namespace Cert.Consts

open Idealize.ShloMosaic

/-- The pattern of `2.0` denotes the real 2. -/
theorem ofBits_two : Ideal.ofBits .f32 0x40000000#32 = ((2 : ℝ) : EReal) := by
  simp [Ideal.ofBits, Ideal.ieee, -EReal.coe_mul]; norm_num

/-- The pattern of `32768.0` denotes the real 32768. -/
theorem ofBits_32768 : Ideal.ofBits .f32 0x47000000#32 = ((32768 : ℝ) : EReal) := by
  simp [Ideal.ofBits, Ideal.ieee, -EReal.coe_mul]; norm_num

/-- The pattern of `+0.0` denotes 0. -/
theorem ofBits_zero : Ideal.ofBits .f32 0x00000000#32 = 0 := by
  simp [Ideal.ofBits, Ideal.ieee]

end Cert.Consts

end
-- ==== Proof.TailAt.lean ====
/-
  The host lines after the region at their one index, for an accumulator of real numbers.

  With the accumulator's columns 0..2 at the reals v_q and its column 3 at the real s, the program's result is the real
  32768·s - 2·∑_q v_q².
-/
import proofs.«133765_j69810398429869_2_alg».proof.Proof.FinalArray
import proofs.«133765_j69810398429869_2_alg».proof.Proof.PayloadAt
import proofs.«133765_j69810398429869_2_alg».proof.Proof.Consts
import proofs.«133765_j69810398429869_2_alg».proof.Proof.LibBatchNorm

noncomputable section

open Idealize.ShloMosaic Idealize.ShloMosaic.ValueIdx

namespace Cert.KernelIdeal.Acc

open Cert.KernelIdeal Cert.KernelIdeal.Gen Idealize.ShloMosaic.LibBatchNorm

/-- Column 3 of the accumulator, cut out and cast to a scalar. -/
theorem tail_sq (a : FVec Ideal S1x4 .f32) (i : S_.Idx) :
    shapeCast S_ (extractStridedSlice S1x1 ![0, 3] a slices_S1x4_S1x1_0_3) shapeCasts_S1x1_S_ i = a (ix2 (0 : Fin 1) (3 : Fin 4)) := by
  refine (shapeCast_apply _ _ i (ix2 (0 : Fin 1) (0 : Fin 1)) ?_).trans ?_
  · have h1 : (S1x1.rowMajor (ix2 (0 : Fin 1) (0 : Fin 1))).val = 0 :=
      Nat.lt_one_iff.mp (lt_of_lt_of_eq (S1x1.rowMajor _).isLt (by decide))
    have h2 : (S_.rowMajor i).val = 0 := Nat.lt_one_iff.mp (lt_of_lt_of_eq (S_.rowMajor i).isLt (by decide))
    exact h1.trans h2.symm
  · exact extractStridedSlice_apply _ a _ _ (ix2 (0 : Fin 1) (3 : Fin 4)) fun b => by
      match b with
      | ⟨0, _⟩ => rfl
      | ⟨1, _⟩ => rfl

/-- Columns 0..2 of the accumulator, cut out and cast to a vector. -/
theorem tail_vec (a : FVec Ideal S1x4 .f32) (q : Fin 3) :
    shapeCast S3 (extractStridedSlice S1x3 ![0, 0] a slices_S1x4_S1x3_0_0) shapeCasts_S1x3_S3 (ix1 q) = a (ix2 (0 : Fin 1) (vcol q)) := by
  refine (shapeCast_1a_a_apply _ _ q).trans ?_
  exact extractStridedSlice_apply _ a _ _ (ix2 (0 : Fin 1) (vcol q)) fun b => by
    match b with
    | ⟨0, _⟩ => rfl
    | ⟨1, _⟩ => show q.val = 0 + q.val; omega

/-- The program's result from a real accumulator. -/
theorem tail_apply (a : FVec Ideal S1x4 .f32) (v : Fin 3 → ℝ) (s : ℝ)
    (hv : ∀ q : Fin 3, a (ix2 (0 : Fin 1) (vcol q)) = ((v q : ℝ) : EReal))
    (hs : a (ix2 (0 : Fin 1) (3 : Fin 4)) = ((s : ℝ) : EReal)) (i : S_.Idx) :
    tail (F := Ideal) a i = ((32768 * s - 2 * ∑ q : Fin 3, v q * v q : ℝ) : EReal) := by
  unfold tail
  rw [subf_apply, mulf_apply, mulf_apply, constant_apply, constant_apply, tail_sq, hs,
    Cert.ColumnSum.hostVecSum_apply _ _ _ _ i, constant_apply, Cert.Consts.ofBits_zero, zero_add,
    Cert.Consts.ofBits_two, Cert.Consts.ofBits_32768]
  have e : ∀ q : Fin 3, mulf (shapeCast S3 (extractStridedSlice S1x3 ![0, 0] a slices_S1x4_S1x3_0_0) shapeCasts_S1x3_S3)
      (shapeCast S3 (extractStridedSlice S1x3 ![0, 0] a slices_S1x4_S1x3_0_0) shapeCasts_S1x3_S3) (ix1 q) = ((v q * v q : ℝ) : EReal) := by
    intro q
    rw [mulf_apply, tail_vec, hv, ← EReal.coe_mul]
  rw [Finset.sum_congr rfl fun q _ => e q, sum_coe, ← EReal.coe_mul, ← EReal.coe_mul, ← EReal.coe_sub]

end Cert.KernelIdeal.Acc

end
-- ==== Proof.RefStages.lean ====
/-
  The reference read at an index, for an argument array of real numbers.

  The reference forms s_i = 0 + ∑_j x_ij² for every row, the matrix of the products x_i·x_k, the matrix of
  s_i + s_k - 2·(x_i·x_k), and sums all of its 16384² entries from 0. Every stage is a real number when the argument's
  entries are, so the result is the real double sum over the ordered pairs (i, k).
-/
import proofs.«133765_j69810398429869_2_alg».proof.Proof.Gen.ReferenceIdeal.Read
import proofs.«133765_j69810398429869_2_alg».proof.Proof.Consts
import proofs.«133765_j69810398429869_2_alg».proof.Proof.LibBatchNorm

noncomputable section

open Idealize.ShloMosaic Idealize.ShloMosaic.ValueIdx

namespace Cert.ReferenceIdeal.RefValue

open Cert.ReferenceIdeal Cert.ReferenceIdeal.Gen Cert.ReferenceIdeal.Read Idealize.ShloMosaic.LibBatchNorm

variable (x0 : FVec Ideal S16384x3 .f32) (xr : Fin 16384 → Fin 3 → ℝ)

/-- The squared norm of row i: the reference's first reduction, from 0. -/
theorem sqn_apply (hx : ∀ i : S16384x3.Idx, x0 i = ((xr (i 0) (i 1) : ℝ) : EReal)) (i : S16384.Idx) :
    val_main_v1 (F := Ideal) x0 i = ((∑ k : Fin 3, xr (i 0) k * xr (i 0) k : ℝ) : EReal) := by
  rw [val_main_v1_apply, val_main_cst_apply, Ideal.ofBits_def, Cert.Consts.ofBits_zero, zero_add, ← sum_coe]
  refine Finset.sum_congr rfl fun k _ => ?_
  rw [val_main_v0_apply, Ideal.mulf_def, hx, ← EReal.coe_mul]
  rfl

/-- The product of rows i and k: the reference's matrix product with the transpose. -/
theorem dot_apply (hx : ∀ i : S16384x3.Idx, x0 i = ((xr (i 0) (i 1) : ℝ) : EReal)) (i : S16384x16384.Idx) :
    val_main_v3 (F := Ideal) x0 i = ((∑ k : Fin 3, xr (i 0) k * xr (i 1) k : ℝ) : EReal) := by
  rw [val_main_v3_apply, ← sum_coe]
  refine Finset.sum_congr rfl fun k _ => ?_
  rw [val_main_v2_apply, hx, hx, ← EReal.coe_mul]
  rfl

/-- The matrix of squared distances at (i, k): s_i + s_k - 2·(x_i·x_k). -/
theorem dist_apply (hx : ∀ i : S16384x3.Idx, x0 i = ((xr (i 0) (i 1) : ℝ) : EReal)) (i : S16384x16384.Idx) :
    val_main_v11 (F := Ideal) x0 i
      = (((∑ k : Fin 3, xr (i 0) k * xr (i 0) k) + (∑ k : Fin 3, xr (i 1) k * xr (i 1) k)
          - 2 * ∑ k : Fin 3, xr (i 0) k * xr (i 1) k : ℝ) : EReal) := by
  rw [val_main_v11_apply, val_main_v8_apply, val_main_v10_apply, val_main_v6_apply, val_main_v7_apply, val_main_v4_apply,
    val_main_v5_apply, val_main_v9_apply, val_main_cst_0_apply, sqn_apply x0 xr hx, sqn_apply x0 xr hx, dot_apply x0 xr hx,
    Ideal.ofBits_def, Cert.Consts.ofBits_two, Ideal.subf_def, Ideal.addf_def, Ideal.mulf_def, ← EReal.coe_add, ← EReal.coe_mul,
    ← EReal.coe_sub]
  rfl

/-- The reference's result: the sum over all ordered pairs of rows of the squared distances. -/
theorem result_apply (hx : ∀ i : S16384x3.Idx, x0 i = ((xr (i 0) (i 1) : ℝ) : EReal)) (i : S_.Idx) :
    val_main_v12 (F := Ideal) x0 i
      = ((∑ p : Fin 16384, ∑ q : Fin 16384, ((∑ k : Fin 3, xr p k * xr p k) + (∑ k : Fin 3, xr q k * xr q k)
          - 2 * ∑ k : Fin 3, xr p k * xr q k) : ℝ) : EReal) := by
  rw [val_main_v12_apply, val_main_cst_1_apply, Ideal.ofBits_def, Cert.Consts.ofBits_zero, zero_add,
    Finset.sum_congr rfl fun j _ => dist_apply x0 xr hx j, sum_coe, sum_idx2]

end Cert.ReferenceIdeal.RefValue

end
-- ==== Proof.Finite.lean ====
/-
  The precondition read back: every entry of the argument is a real number.

  The precondition says that |x| < +∞ holds at every entry of the argument (an `and` over all entries that came out
  true). An extended real whose absolute value max(x, -x) is below +∞ is neither +∞ nor -∞, so it is a real number.
-/
import proofs.«133765_j69810398429869_2_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx

instance : Subsingleton Cert.Pre_finite_inputs.S_.Idx := ⟨fun a b => funext fun d => d.elim0⟩

/-- An extended real whose absolute value is below the pattern of +∞ is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => exact absurd h (by simp [Ideal.cmp])
  | coe r => exact ⟨r, rfl⟩
  | top => exact absurd h (by simp [Ideal.cmp])

/-- Under the precondition every entry of the argument is a real number. -/
theorem real_of_pre [Cert.Pre_finite_inputs.Facts] (x : FVec Ideal Cert.Pre_finite_inputs.S16384x3 .f32)
    (h : Cert.Pre_finite_inputs.fn (F := Ideal) x = fun _ => 1#1) (i : Cert.Pre_finite_inputs.S16384x3.Idx) :
    ∃ r : ℝ, x i = (r : EReal) := by
  have h0 := congrFun h ix0
  dsimp only [Cert.Pre_finite_inputs.fn] at h0
  have hi := Host.reduce_andi_all _ _ _ _ _ h0 i
  exact real_of_abs_lt (x i) hi

end Cert.Finite

end
-- ==== Proof.lean ====
/-
  The pairwise-distance energy of 16384 points in three dimensions: the kernel against its reference, over the
  extended reals, for finite inputs.

  The reference sums, over all ordered pairs (i, k) of rows, the squared distance s_i + s_k - 2·(x_i·x_k), where
  s_i = ∑_j x_ij². The kernel makes one pass over the rows in 8 blocks of 2048, accumulating the column sums
  v_q = ∑_i x_iq and the total S = ∑_i s_i, and returns 32768·S - 2·∑_q v_q². For real inputs these agree: each of
  the first two terms of the pair sum contributes N = 16384 copies of S, and the cross term factors as
  ∑_q (∑_i x_iq)·(∑_k x_kq). The law moves factors across sums, so it is applied to real numbers: the precondition
  (every entry finite) gives a real array behind the argument, and every stage of both programs is then a real.

  The frames: the two kernel programs' are the generated frame runs; the reference's is its run with the result
  dropped. The ideal pass rewrote nothing, so the idealization claim is trivial.
-/
import proofs.«133765_j69810398429869_2_alg».proof.Defs
import proofs.«133765_j69810398429869_2_alg».proof.Proof.Gen.Kernel
import proofs.«133765_j69810398429869_2_alg».proof.Proof.Gen.Kernel.Skeleton
import proofs.«133765_j69810398429869_2_alg».proof.Proof.Gen.Kernel.Launch
import proofs.«133765_j69810398429869_2_alg».proof.Proof.Gen.Kernel.Points
import proofs.«133765_j69810398429869_2_alg».proof.Proof.Gen.Kernel.Frame
import proofs.«133765_j69810398429869_2_alg».proof.Proof.Gen.KernelIdeal
import proofs.«133765_j69810398429869_2_alg».proof.Proof.Gen.KernelIdeal.Skeleton
import proofs.«133765_j69810398429869_2_alg».proof.Proof.Gen.KernelIdeal.Launch
import proofs.«133765_j69810398429869_2_alg».proof.Proof.Gen.KernelIdeal.Points
import proofs.«133765_j69810398429869_2_alg».proof.Proof.Gen.KernelIdeal.Frame
import proofs.«133765_j69810398429869_2_alg».proof.Proof.Gen.ReferenceIdeal
import proofs.«133765_j69810398429869_2_alg».proof.Proof.Gen.ReferenceIdeal.Run
import proofs.«133765_j69810398429869_2_alg».proof.Proof.Gen.ReferenceIdeal.Read
import proofs.«133765_j69810398429869_2_alg».proof.Proof.Gen.Pre_finite_inputs
import proofs.«133765_j69810398429869_2_alg».proof.Proof.Accumulate
import proofs.«133765_j69810398429869_2_alg».proof.Proof.TailAt
import proofs.«133765_j69810398429869_2_alg».proof.Proof.RefStages
import proofs.«133765_j69810398429869_2_alg».proof.Proof.Finite
import proofs.«133765_j69810398429869_2_alg».proof.Proof.EnergyLaw
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel :=
  fun m ρ _ => Cert.Kernel.Gen.frame m ρ

theorem frame_ki : Cert.frame_KernelIdeal :=
  fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the argument, whose entries the precondition makes real numbers, the kernel's result
    is 32768·S - 2·∑_q v_q² of the argument's column sums v and total squared norm S, the reference's is the sum over
    all ordered pairs of rows of the squared distances; the two reals are equal. -/
theorem algebraic : Cert.algebraic_KernelIdeal_ReferenceIdeal := by
  intro m ρ m' ρ' hpre hagree
  have hreal : ∀ (c : Dev Cert.KernelIdeal.nD) (i : Cert.KernelIdeal.S16384x3.Idx),
      ∃ r : ℝ, m ((c.tc : Thread Cert.KernelIdeal.nD Cert.KernelIdeal.τ).loc Cert.KernelIdeal.main_arg0) i = (r : EReal) :=
    fun c i => Cert.Finite.real_of_pre _ (hpre c) i
  choose xr hxr using hreal
  refine ⟨fun c => Cert.KernelIdeal.Acc.tail (F := Ideal) (Cert.KernelIdeal.Acc.result (F := Ideal) m c),
    Cert.KernelIdeal.Acc.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, hagree c]
  funext i
  have hx2 : ∀ (p : Fin 16384) (j : Fin 3),
      m ((c.tc : Thread Cert.KernelIdeal.nD Cert.KernelIdeal.τ).loc Cert.KernelIdeal.main_arg0) (ix2 p j) = ((xr c (ix2 p j) : ℝ) : EReal) :=
    fun p j => hxr c (ix2 p j)
  have hx1 : ∀ i : Cert.ReferenceIdeal.S16384x3.Idx,
      m ((c.tc : Thread Cert.KernelIdeal.nD Cert.KernelIdeal.τ).loc Cert.KernelIdeal.main_arg0) i = ((xr c (ix2 (i 0) (i 1)) : ℝ) : EReal) :=
    fun i => (hxr c i).trans (congrArg (fun j => ((xr c j : ℝ) : EReal)) (eq_ix2 i))
  exact (Cert.ReferenceIdeal.RefValue.result_apply _ (fun p j => xr c (ix2 p j)) hx1 i).trans
    ((congrArg (fun r : ℝ => (r : EReal)) (Cert.EnergyLaw.energy_16384 fun p j => xr c (ix2 p j))).trans
      (Cert.KernelIdeal.Acc.tail_apply (Cert.KernelIdeal.Acc.result (F := Ideal) m c) (fun q => ∑ p : Fin 16384, xr c (ix2 p q))
        (∑ p : Fin 16384, ∑ j : Fin 3, xr c (ix2 p j) * xr c (ix2 p j))
        (fun q => Cert.KernelIdeal.Acc.last_col m (fun p j => xr c (ix2 p j)) c hx2 Cert.KernelIdeal.Acc.lt7 q)
        (Cert.KernelIdeal.Acc.last_sq m (fun p j => xr c (ix2 p j)) c hx2 Cert.KernelIdeal.Acc.lt7) i).symm)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
